-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S4096x7 : Shape := ⟨2, ![4096, 7]⟩
abbrev S256x256 : Shape := ⟨2, ![256, 256]⟩
abbrev S7x256 : Shape := ⟨2, ![7, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S4096x7 : S_.BroadcastsInDim S4096x7 (![] : Fin 0 → Fin S4096x7.rank)
  reducesTo_S4096x7_S_d0_1 : S4096x7.ReducesTo [0, 1] S_
  bcast_S_S256x256 : S_.BroadcastsInDim S256x256 (![] : Fin 0 → Fin S256x256.rank)
  reducesTo_S256x256_S_d0_1 : S256x256.ReducesTo [0, 1] S_
  bcast_S_S7x256 : S_.BroadcastsInDim S7x256 (![] : Fin 0 → Fin S7x256.rank)
  reducesTo_S7x256_S_d0_1 : S7x256.ReducesTo [0, 1] S_

variable [Facts]

def fn_part1 {F : FTy → Type} [FloatOps F] (main_arg4 : FVec F S7x256 .f32) (main_v13 : IVec S_ 1) (main_v16 : IVec S7x256 1) : IVec S_ 1 :=
  let main_c_5 : IVec S_ 1 := constantI S_ 1 1#1
  let main_v17 : IVec S_ 1 := (fun x v => Host.reduce IntOp.andi x v reducesTo_S7x256_S_d0_1 h_S_) main_v16 main_c_5
  let main_v18 : IVec S_ 1 := andi main_v13 main_v17
  let main_v19 : FVec F S7x256 .f32 := Host.absf main_arg4
  let main_cst_6 : FVec F S_ .f32 := constant S_ .f32 0x7F800000#32
  let main_v20 : FVec F S7x256 .f32 := broadcastInDim S7x256 ![] bcast_S_S7x256 main_cst_6
  let main_v21 : IVec S7x256 1 := cmpf .olt main_v19 main_v20
  let main_c_7 : IVec S_ 1 := constantI S_ 1 1#1
  let main_v22 : IVec S_ 1 := (fun x v => Host.reduce IntOp.andi x v reducesTo_S7x256_S_d0_1 h_S_) main_v21 main_c_7
  let main_v23 : IVec S_ 1 := andi main_v18 main_v22
  main_v23

def fn {F : FTy → Type} [FloatOps F] (main_arg0 : FVec F S16384x256 .f32) (main_arg1 : FVec F S4096x7 .f32) (main_arg2 : FVec F S256x256 .f32) (main_arg3 : FVec F S7x256 .f32) (main_arg4 : FVec F S7x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S4096x7 .f32 := Host.absf main_arg1
  let main_cst_0 : FVec F S_ .f32 := constant S_ .f32 0x7F800000#32
  let main_v5 : FVec F S4096x7 .f32 := broadcastInDim S4096x7 ![] bcast_S_S4096x7 main_cst_0
  let main_v6 : IVec S4096x7 1 := cmpf .olt main_v4 main_v5
  let main_c_1 : IVec S_ 1 := constantI S_ 1 1#1
  let main_v7 : IVec S_ 1 := (fun x v => Host.reduce IntOp.andi x v reducesTo_S4096x7_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S7x256 .f32 := Host.absf main_arg3
  let main_cst_4 : FVec F S_ .f32 := constant S_ .f32 0x7F800000#32
  let main_v15 : FVec F S7x256 .f32 := broadcastInDim S7x256 ![] bcast_S_S7x256 main_cst_4
  let main_v16 : IVec S7x256 1 := cmpf .olt main_v14 main_v15
  fn_part1 (F := F) main_arg4 main_v13 main_v16
-- ==== Kernel.lean ====
abbrev S16384x256 : Shape := ⟨2, ![16384, 256]⟩
abbrev S4096x7 : Shape := ⟨2, ![4096, 7]⟩
abbrev S256x256 : Shape := ⟨2, ![256, 256]⟩
abbrev S7x256 : Shape := ⟨2, ![7, 256]⟩
abbrev S4096x256 : Shape := ⟨2, ![4096, 256]⟩
abbrev S512x256 : Shape := ⟨2, ![512, 256]⟩
abbrev S256x4096 : Shape := ⟨2, ![256, 4096]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x256, .f32⟩
  | .hbm, ⟨1, _⟩ => ⟨S4096x7, .f32⟩
  | .hbm, ⟨2, _⟩ => ⟨S256x256, .f32⟩
  | .hbm, ⟨3, _⟩ => ⟨S7x256, .f32⟩
  | .hbm, ⟨4, _⟩ => ⟨S7x256, .f32⟩
  | .hbm, ⟨5, _⟩ => ⟨S4096x256, .bf16⟩
  | .hbm, ⟨6, _⟩ => ⟨S4096x256, .bf16⟩
  | .hbm, ⟨7, _⟩ => ⟨S16384x256, .f32⟩
  | .local _ .vmem, ⟨0, _⟩ => ⟨S4096x7, .f32⟩
  | .local _ .vmem, ⟨1, _⟩ => ⟨S7x256, .f32⟩
  | .local _ .vmem, ⟨2, _⟩ => ⟨S7x256, .f32⟩
  | .local _ .vmem, ⟨3, _⟩ => ⟨S4096x256, .bf16⟩
  | .local _ .vmem, ⟨4, _⟩ => ⟨S4096x256, .bf16⟩
  | .local _ .vmem, ⟨5, _⟩ => ⟨S512x256, .f32⟩
  | .local _ .vmem, ⟨6, _⟩ => ⟨S512x256, .f32⟩
  | .local _ .vmem, ⟨7, _⟩ => ⟨S256x256, .f32⟩
  | .local _ .vmem, ⟨8, _⟩ => ⟨S4096x256, .bf16⟩
  | .local _ .vmem, ⟨9, _⟩ => ⟨S4096x256, .bf16⟩
  | .local _ .vmem, ⟨10, _⟩ => ⟨S512x256, .f32⟩
  | .local _ .vmem, ⟨11, _⟩ => ⟨S512x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S4096x7_S4096x7_0_0 : ∀ a, (![0, 0] : Fin 2 → Nat) a + S4096x7.size a ≤ S4096x7.size a
  h_S4096x7 : 0 < S4096x7.numel
  bitsLt_bf16_f32 : FTy.bits .bf16 < FTy.bits .f32
  inb_S7x256_S7x256_0_0 : ∀ a, (![0, 0] : Fin 2 → Nat) a + S7x256.size a ≤ S7x256.size a
  h_S7x256 : 0 < S7x256.numel
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  transposes_S4096x256_p1_0_S256x4096 : S4096x256.Transposes [1, 0] S256x4096
  reduces_S512x4096_S512 : S512x4096.Reduces [1] S512
  shapeCasts_S512_S512x1 : S512.ShapeCasts S512x1
  broadcasts_S512x1_S512x4096 : S512x1.Broadcasts S512x4096
  dot_S4096x7_S7x256_S4096x256_1_0_0_1_n_n_wf : DotDims.WF S4096x7 S7x256 S4096x256 [1] [0] [0] [1] [] []
  dot_S512x256_S256x256_S512x256_1_0_0_1_n_n_wf : DotDims.WF S512x256 S256x256 S512x256 [1] [0] [0] [1] [] []
  dot_S512x256_S256x4096_S512x4096_1_0_0_1_n_n_wf : DotDims.WF S512x256 S256x4096 S512x4096 [1] [0] [0] [1] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x7.size a ≤ S4096x7.size a
  hwx0_0 : ∀ i : grid0.Coords, EltTy.bits .f32 = 32 ∨ (Rect.block (s := S4096x7) S4096x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x256.size a ≤ S7x256.size a
  hwx0_1 : ∀ i : grid0.Coords, EltTy.bits .f32 = 32 ∨ (Rect.block (s := S7x256) S7x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x256.size a ≤ S7x256.size a
  hwx0_2 : ∀ i : grid0.Coords, EltTy.bits .f32 = 32 ∨ (Rect.block (s := S7x256) S7x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .bf16 = 32 ∨ (Rect.block (s := S4096x256) S4096x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x256.size a
  hwx0_4 : ∀ i : grid0.Coords, EltTy.bits .bf16 = 32 ∨ (Rect.block (s := S4096x256) S4096x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S16384x256.size a
  hwx1_0 : ∀ i : grid1.Coords, EltTy.bits .f32 = 32 ∨ (Rect.block (s := S16384x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x256.size a
  hwx1_2 : ∀ i : grid1.Coords, EltTy.bits .bf16 = 32 ∨ (Rect.block (s := S4096x256) S4096x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S4096x256.size a
  hwx1_3 : ∀ i : grid1.Coords, EltTy.bits .bf16 = 32 ∨ (Rect.block (s := S4096x256) S4096x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S16384x256.size a
  hwx1_4 : ∀ i : grid1.Coords, EltTy.bits .f32 = 32 ∨ (Rect.block (s := S16384x256) S512x256.size (cc1_transform_4 i) (hinb1_4 i)).WholeWords (EltTy.packing .f32)

variable [Facts₀]

def dot_S4096x7_S7x256_S4096x256_1_0_0_1_n_n : DotDims S4096x7 S7x256 S4096x256 where
  lhsContracting := [1]
  rhsContracting := [0]
  lhsNonContracting := [0]
  rhsNonContracting := [1]
  lhsBatch := []
  rhsBatch := []
  wf := dot_S4096x7_S7x256_S4096x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg1) S4096x7.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S7x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S7x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S4096x256.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S4096x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S4096x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x256 : Shape := ⟨2, ![16384, 256]⟩
abbrev S4096x7 : Shape := ⟨2, ![4096, 7]⟩
abbrev S256x256 : Shape := ⟨2, ![256, 256]⟩
abbrev S7x256 : Shape := ⟨2, ![7, 256]⟩
abbrev S4096x256 : Shape := ⟨2, ![4096, 256]⟩
abbrev S256x4096 : Shape := ⟨2, ![256, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩

abbrev nBuf : Space → Nat
  | .hbm => 41
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S4096x7, .f32⟩
  | .hbm, ⟨2, _⟩ => ⟨S256x256, .f32⟩
  | .hbm, ⟨3, _⟩ => ⟨S7x256, .f32⟩
  | .hbm, ⟨4, _⟩ => ⟨S7x256, .f32⟩
  | .hbm, ⟨5, _⟩ => ⟨S16384x256, .f32⟩
  | .hbm, ⟨6, _⟩ => ⟨S4096x256, .f32⟩
  | .hbm, ⟨7, _⟩ => ⟨S4096x256, .f32⟩
  | .hbm, ⟨8, _⟩ => ⟨S256x4096, .f32⟩
  | .hbm, ⟨9, _⟩ => ⟨S16384x4096, .f32⟩
  | .hbm, ⟨10, _⟩ => ⟨S_, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384x1, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S_, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x4096, .f32⟩
  | .hbm, ⟨39, _⟩ => ⟨S16384x4096, .f32⟩
  | .hbm, ⟨40, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  transposes_S4096x256_S256x4096_1_0 : S4096x256.Transposes [1, 0] S256x4096
  bcast_S_S16384x4096 : S_.BroadcastsInDim S16384x4096 (![] : Fin 0 → Fin S16384x4096.rank)
  reducesTo_S16384x4096_S16384_d1 : S16384x4096.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  dot_S16384x256_S256x256_S16384x256_1_0_0_1_n_n_wf : DotDims.WF S16384x256 S256x256 S16384x256 [1] [0] [0] [1] [] []
  dot_S4096x7_S7x256_S4096x256_1_0_0_1_n_n_wf : DotDims.WF S4096x7 S7x256 S4096x256 [1] [0] [0] [1] [] []
  dot_S16384x256_S256x4096_S16384x4096_1_0_0_1_n_n_wf : DotDims.WF S16384x256 S256x4096 S16384x4096 [1] [0] [0] [1] [] []
  dot_S16384x4096_S4096x256_S16384x256_1_0_0_1_n_n_wf : DotDims.WF S16384x4096 S4096x256 S16384x256 [1] [0] [0] [1] [] []

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S4096x7_S7x256_S4096x256_1_0_0_1_n_n : DotDims S4096x7 S7x256 S4096x256 where
  lhsContracting := [1]
  rhsContracting := [0]
  lhsNonContracting := [0]
  rhsNonContracting := [1]
  lhsBatch := []
  rhsBatch := []
  wf := dot_S4096x7_S7x256_S4096x256_1_0_0_1_n_n_wf
def dot_S16384x256_S256x4096_S16384x4096_1_0_0_1_n_n : DotDims S16384x256 S256x4096 S16384x4096 where
  lhsContracting := [1]
  rhsContracting := [0]
  lhsNonContracting := [0]
  rhsNonContracting := [1]
  lhsBatch := []
  rhsBatch := []
  wf := dot_S16384x256_S256x4096_S16384x4096_1_0_0_1_n_n_wf
def dot_S16384x4096_S4096x256_S16384x256_1_0_0_1_n_n : DotDims S16384x4096 S4096x256 S16384x256 where
  lhsContracting := [1]
  rhsContracting := [0]
  lhsNonContracting := [0]
  rhsNonContracting := [1]
  lhsBatch := []
  rhsBatch := []
  wf := dot_S16384x4096_S4096x256_S16384x256_1_0_0_1_n_n_wf

class Facts : Prop extends Facts₀ where

variable [Facts]
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.Consts.lean ====
/-
  The float literals this certificate's arithmetic depends on, as the extended reals their words denote:
  the kernel's scale `0.0625` is exactly `1/16`, the reference's `256.0` is `256`, and its square root is `16`.
-/
import Idealize.ShloMosaic.PureOps.Ideal

noncomputable section

namespace Cert.AttnConsts

open Idealize.ShloMosaic

/-- The word `0x3D800000` denotes `1/16`. -/
theorem ofBits_sixteenth : Ideal.ofBits .f32 0x3D800000#32 = ((1 / 16 : ℝ) : EReal) := by
  simp [Ideal.ofBits, Ideal.ieee, -EReal.coe_mul]; norm_num

/-- The word `0x43800000` denotes `256`. -/
theorem ofBits_256 : Ideal.ofBits .f32 0x43800000#32 = ((256 : ℝ) : EReal) := by
  simp [Ideal.ofBits, Ideal.ieee, -EReal.coe_mul]; norm_num

/-- `256 = 16²`, so its square root is `16`. -/
theorem real_sqrt_256 : Real.sqrt 256 = 16 := by
  rw [show (256 : ℝ) = 16 ^ 2 by norm_num]
  exact Real.sqrt_sq (by norm_num)

/-- The square root of the word `256.0`, on the extended reals, is `16`. -/
theorem sqrt_256 : Ideal.sqrt (Ideal.ofBits .f32 0x43800000#32) = ((16 : ℝ) : EReal) := by
  rw [ofBits_256, Ideal.sqrt_coe, if_neg (by norm_num), real_sqrt_256]

end Cert.AttnConsts

end
-- ==== Proof.Spec.lean ====
/-
  The specification: single-head attention whose row weights blend a softmax with a scaled relu.

  For a row of scores `s` over the keys: `e j = exp (s j - max s)`, the blend
  `b j = e j / Σ e + 0.1 · max (s j) 0`, the weight `w j = b j / Σ b`, and the row's output is `Σ_j w j · v j`.
  The kernel takes as scores `Σ_k (q k · 1/16) · y k` (the scale folded into the projected query), the
  reference `(Σ_k q k · y k) / √256`. These agree whenever the projected queries and keys are real numbers:
  `√256 = 16`, dividing by `16` is multiplying by `1/16`, and a real factor moves across a finite sum of reals.
  (On the extended reals this last step needs finiteness: with an infinite term the two sides can differ.)
-/
import Idealize.ShloMosaic.PureOps.Ideal
import Idealize.ShloMosaic.PureOps.Ideal.Laws
import Idealize.ShloMosaic.Lib.ValueIdx
import proofs.«120492_j987842478212_2_alg».proof.Proof.LibERealSums
import proofs.«120492_j987842478212_2_alg».proof.Proof.Consts

noncomputable section

namespace Cert.SmoothAttn

open Idealize.ShloMosaic

/-- A rank-2 array read by its two coordinates. -/
def mat {a b : ℕ} (v : (⟨2, ![a, b]⟩ : Shape).Idx → EReal) (p : Fin a) (q : Fin b) : EReal := v (ValueIdx.ix2 p q)

/-- A matrix product at an entry: `Σ_k l (a, k) · r (k, b)`. -/
def mm {M K N : ℕ} (l : Fin M → Fin K → EReal) (r : Fin K → Fin N → EReal) (a : Fin M) (b : Fin N) : EReal :=
  ∑ k, l a k * r k b

variable {n : ℕ}

/-- The maximum of a row of scores, folded from minus infinity. -/
def rowMax (s : Fin n → EReal) : EReal :=
  (Finset.univ : Finset (Fin n)).fold max (Ideal.ofBits .f32 0xFF800000#32) s

/-- The softmax numerator: the exponential of a score's distance below the row maximum. -/
def softExp (s : Fin n → EReal) (j : Fin n) : EReal := Ideal.exp (s j - rowMax s)

/-- The blend of the softmax with one tenth (the word `0x3DCCCCCD`, the same on both sides) of the relu. -/
def blend (s : Fin n → EReal) (j : Fin n) : EReal :=
  Ideal.div (softExp s j) (∑ j', softExp s j')
    + Ideal.ofBits .f32 0x3DCCCCCD#32 * max (s j) (Ideal.ofBits .f32 0x00000000#32)

/-- The renormalized weight of key `j`. -/
def weight (s : Fin n → EReal) (j : Fin n) : EReal := Ideal.div (blend s j) (∑ j', blend s j')

/-- The weighted sum of a column of values. -/
def attend (s v : Fin n → EReal) : EReal := ∑ j, weight s j * v j

/-- The kernel's scores for one query row: the scale `1/16` multiplied into the projected query. -/
def scoresScaled {K : ℕ} (q : Fin K → EReal) (yk : Fin n → Fin K → EReal) (j : Fin n) : EReal :=
  ∑ k, (q k * Ideal.ofBits .f32 0x3D800000#32) * yk j k

/-- The reference's scores for one query row: the plain dot product divided by `√256`. -/
def scoresDivided {K : ℕ} (q : Fin K → EReal) (yk : Fin n → Fin K → EReal) (j : Fin n) : EReal :=
  Ideal.div (∑ k, q k * yk j k) (Ideal.sqrt (Ideal.ofBits .f32 0x43800000#32))

/-- The output entry as the kernel computes it from the projected query row, the keys and the value column. -/
def outScaled {K : ℕ} (q : Fin K → EReal) (yk : Fin n → Fin K → EReal) (v : Fin n → EReal) : EReal :=
  attend (scoresScaled q yk) v

/-- The output entry as the reference computes it. -/
def outDivided {K : ℕ} (q : Fin K → EReal) (yk : Fin n → Fin K → EReal) (v : Fin n → EReal) : EReal :=
  attend (scoresDivided q yk) v

/-- A product of matrices of reals has real entries. -/
theorem mm_real {M K N : ℕ} (l : Fin M → Fin K → EReal) (r : Fin K → Fin N → EReal)
    (hl : ∀ a k, ∃ x : ℝ, l a k = (x : EReal)) (hr : ∀ k b, ∃ x : ℝ, r k b = (x : EReal)) (a : Fin M) (b : Fin N) :
    ∃ x : ℝ, mm l r a b = (x : EReal) := by
  choose lr hl using hl
  choose rr hr using hr
  refine ⟨∑ k, lr a k * rr k b, ?_⟩
  unfold mm
  exact Cert.LibERealSums.sum_eq_coe _ _ _ fun k _ => by rw [hl, hr, EReal.coe_mul]

/-- THE LAW that joins the two sides: for real projected queries and keys, scaling the query by `1/16` before
    the dot product is dividing the dot product by `√256`. -/
theorem scoresScaled_eq_scoresDivided {K : ℕ} (q : Fin K → EReal) (yk : Fin n → Fin K → EReal)
    (hq : ∀ k, ∃ x : ℝ, q k = (x : EReal)) (hy : ∀ j k, ∃ x : ℝ, yk j k = (x : EReal)) :
    scoresScaled q yk = scoresDivided q yk := by
  choose qr hq using hq
  choose yr hy using hy
  funext j
  unfold scoresScaled scoresDivided
  rw [Cert.AttnConsts.sqrt_256, Ideal.div_coe (by norm_num : (16 : ℝ) ≠ 0), Cert.AttnConsts.ofBits_sixteenth,
    Cert.LibERealSums.sum_eq_coe Finset.univ _ (fun k => qr k * (1 / 16) * yr j k)
      (fun k _ => by rw [hq, hy, EReal.coe_mul, EReal.coe_mul]),
    Cert.LibERealSums.sum_eq_coe Finset.univ _ (fun k => qr k * yr j k)
      (fun k _ => by rw [hq, hy, EReal.coe_mul]),
    ← EReal.coe_mul, Finset.sum_mul]
  refine congrArg _ (Finset.sum_congr rfl fun k _ => ?_)
  ring

/-- So the two output entries agree for real projected queries and keys. -/
theorem outScaled_eq_outDivided {K : ℕ} (q : Fin K → EReal) (yk : Fin n → Fin K → EReal) (v : Fin n → EReal)
    (hq : ∀ k, ∃ x : ℝ, q k = (x : EReal)) (hy : ∀ j k, ∃ x : ℝ, yk j k = (x : EReal)) :
    outScaled q yk v = outDivided q yk v := by
  unfold outScaled outDivided
  rw [scoresScaled_eq_scoresDivided q yk hq hy]

end Cert.SmoothAttn

end
-- ==== Proof.ResultRun.lean ====
/-
  The idealized kernel's run with its result array named.

  The program is two kernel launches in a row: the first writes the key and value projections, the second
  reads them back and writes the attention output, one block of 512 query rows per grid point. After the run
  the output array is what the second launch's write-backs leave, `(dat1 …).arrAt 4 N`, the argument arrays are
  as launched, and at the second launch's entry the two projections are what the first launch's write-backs
  left while the arguments it reads are still the launch contents.
-/
import proofs.«120492_j987842478212_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second launch finds the query array as launched: the first launch does not touch it. -/
theorem entry_main_arg0 (c : Dev nD) : V1 m ρ c main_arg0 = m ((c : Thread nD τ).loc main_arg0) :=
  (W1_of_ne m ρ c main_arg0 (by decide)).trans rfl

/-- The second launch finds the query weights as launched. -/
theorem entry_main_arg2 (c : Dev nD) : V1 m ρ c main_arg2 = m ((c : Thread nD τ).loc main_arg2) :=
  (W1_of_ne m ρ c main_arg2 (by decide)).trans rfl

/-- The second launch finds the key projection as the first launch's write-backs left it. -/
theorem entry_keys (c : Dev nD) : V1 m ρ c main_v0_0 = (dat0 (V0 m ρ) c).arrAt 3 cfg0.N := W1_arr m ρ c 3

/-- The second launch finds the value projection as the first launch's write-backs left it. -/
theorem entry_values (c : Dev nD) : V1 m ρ c main_v0_1 = (dat0 (V0 m ρ) c).arrAt 4 cfg0.N := W1_arr m ρ c 4

-- the launch theorem's implicit arguments are found by unifying its conclusion with this statement, which takes
-- unfolding plain definitions in a metavariable's type
set_option backward.isDefEq.respectTransparency.types false in
/-- Every weakly fair execution terminates, nothing faulting, with the output array at what the second launch's
    write-backs leave and the argument arrays as launched. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 4),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

end Cert.KernelIdeal.ResultRun

end
-- ==== Proof.ProjBlocks.lean ====
/-
  The first launch: the key and value projections as whole arrays.

  Its grid has one point and every window's block is its whole array, so the block an input window stages IS the
  array as the launch finds it, and the one write-back of each output window fills its array with the body's
  stored value: the product of the context rows with the key weights (window 3) and with the value weights
  (window 4), as one function of the whole argument arrays.
-/
import proofs.«120492_j987842478212_2_alg».proof.Proof.Gen.KernelIdeal.Frame
import Idealize.ShloMosaic.Lib.Pipeline.Value

set_option maxRecDepth 16384

noncomputable section

namespace Cert.KernelIdeal.ProjBlocks

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- At the grid's one point every window's block index is the origin. -/
theorem index_origin : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The context block is the whole context array. -/
theorem context_block (c : Dev nD) (t : Fin cfg0.N) : iblk0 V c 0 t = V c main_arg1 := by
  funext j
  show V c main_arg1 (((cfg0.win 0).blk t).view.emb j) = V c main_arg1 j
  refine congrArg (V c main_arg1) (funext fun a => Fin.ext ?_)
  obtain ⟨e0, e1, -⟩ := index_origin t
  match a with
  | ⟨0, _⟩ => show win0_0.index t (0 : Fin 2) * 4096 + 1 * (j 0).val = (j 0).val; omega
  | ⟨1, _⟩ => show win0_0.index t (1 : Fin 2) * 7 + 1 * (j 1).val = (j 1).val; omega

/-- The key-weight block is the whole key-weight array. -/
theorem keyWeights_block (c : Dev nD) (t : Fin cfg0.N) : iblk0 V c 1 t = V c main_arg3 := by
  funext j
  show V c main_arg3 (((cfg0.win 1).blk t).view.emb j) = V c main_arg3 j
  refine congrArg (V c main_arg3) (funext fun a => Fin.ext ?_)
  obtain ⟨-, -, e0, e1, -⟩ := index_origin t
  match a with
  | ⟨0, _⟩ => show win0_1.index t (0 : Fin 2) * 7 + 1 * (j 0).val = (j 0).val; omega
  | ⟨1, _⟩ => show win0_1.index t (1 : Fin 2) * 256 + 1 * (j 1).val = (j 1).val; omega

/-- The value-weight block is the whole value-weight array. -/
theorem valueWeights_block (c : Dev nD) (t : Fin cfg0.N) : iblk0 V c 2 t = V c main_arg4 := by
  funext j
  show V c main_arg4 (((cfg0.win 2).blk t).view.emb j) = V c main_arg4 j
  refine congrArg (V c main_arg4) (funext fun a => Fin.ext ?_)
  obtain ⟨-, -, -, -, e0, e1, -⟩ := index_origin t
  match a with
  | ⟨0, _⟩ => show win0_2.index t (0 : Fin 2) * 7 + 1 * (j 0).val = (j 0).val; omega
  | ⟨1, _⟩ => show win0_2.index t (1 : Fin 2) * 256 + 1 * (j 1).val = (j 1).val; omega

/-- What the point writes back to the key projection is the whole stored value, read through the (whole) block. -/
theorem keys_flushed (c : Dev nD) (t : Fin cfg0.N) :
    (dat0 V c).flushed 3 t = ((cfg0.win 3).blk t).view.read (Elt F) (k0_pay2 (V c main_arg1) (V c main_arg3)) := by
  show (cfg0.win 3).cut (grid0.coords t) ((dat0 V c).after 3 t) = _
  rw [after0_3]
  unfold out0_3
  rw [View.canon_unit_zero origin]
  simp only [View.ld_unit_zero (S := S4096x7) origin, View.ld_unit_zero (S := S7x256) origin]
  rw [context_block V c t, keyWeights_block V c t]
  funext j
  show k0_pay2 (V c main_arg1) (V c main_arg3) j = k0_pay2 (V c main_arg1) (V c main_arg3) (((cfg0.win 3).blk t).view.emb j)
  refine congrArg _ (funext fun a => Fin.ext ?_)
  obtain ⟨-, -, -, -, -, -, e0, e1, -⟩ := index_origin t
  match a with
  | ⟨0, _⟩ => show (j 0).val = win0_3.index t (0 : Fin 2) * 4096 + 1 * (j 0).val; omega
  | ⟨1, _⟩ => show (j 1).val = win0_3.index t (1 : Fin 2) * 256 + 1 * (j 1).val; omega

/-- Likewise for the value projection. -/
theorem values_flushed (c : Dev nD) (t : Fin cfg0.N) :
    (dat0 V c).flushed 4 t = ((cfg0.win 4).blk t).view.read (Elt F) (k0_pay3 (V c main_arg1) (V c main_arg4)) := by
  show (cfg0.win 4).cut (grid0.coords t) ((dat0 V c).after 4 t) = _
  rw [after0_4]
  unfold out0_4
  rw [View.canon_unit_zero origin]
  simp only [View.ld_unit_zero (S := S4096x7) origin, View.ld_unit_zero (S := S7x256) origin]
  rw [context_block V c t, valueWeights_block V c t]
  funext j
  show k0_pay3 (V c main_arg1) (V c main_arg4) j = k0_pay3 (V c main_arg1) (V c main_arg4) (((cfg0.win 4).blk t).view.emb j)
  refine congrArg _ (funext fun a => Fin.ext ?_)
  obtain ⟨-, -, -, -, -, -, -, -, e0, e1⟩ := index_origin t
  match a with
  | ⟨0, _⟩ => show (j 0).val = win0_4.index t (0 : Fin 2) * 4096 + 1 * (j 0).val; omega
  | ⟨1, _⟩ => show (j 1).val = win0_4.index t (1 : Fin 2) * 256 + 1 * (j 1).val; omega

/-- An index of a projection array is in the point's block iff each coordinate is in the block's range. -/
theorem mem_keys_block (t : Fin cfg0.N) (i : S4096x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v0_0).slice (win0_3.rect t)).set ↔ _
  rw [View.set_slice_whole, Rect.mem_set_unit]
  exact Iff.rfl

theorem mem_values_block (t : Fin cfg0.N) (i : S4096x256.Idx) :
    i ∈ ((cfg0.win 4).blk t).view.set ↔ ∀ a : Fin 2, win0_4.index t a * S4096x256.size a ≤ (i a).val ∧ (i a).val < win0_4.index t a * S4096x256.size a + S4096x256.size a := by
  show i ∈ ((View.whole main_v0_1).slice (win0_4.rect t)).set ↔ _
  rw [View.set_slice_whole, Rect.mem_set_unit]
  exact Iff.rfl

/-- The one block covers the whole key projection. -/
theorem keys_cover (i : S4096x256.Idx) : ∃ t : Fin cfg0.N, (cfg0.win 3).flush t = true ∧ i ∈ ((cfg0.win 3).blk t).view.set := by
  refine ⟨⟨0, by decide⟩, flush0_3 _, ?_⟩
  rw [mem_keys_block]
  obtain ⟨-, -, -, -, -, -, e0, e1, -⟩ := index_origin ⟨0, by decide⟩
  have h0 : (i 0).val < 4096 := (i 0).isLt
  have h1 : (i 1).val < 256 := (i 1).isLt
  intro a
  match a with
  | ⟨0, _⟩ => show win0_3.index _ (0 : Fin 2) * 4096 ≤ (i 0).val ∧ (i 0).val < win0_3.index _ (0 : Fin 2) * 4096 + 4096; omega
  | ⟨1, _⟩ => show win0_3.index _ (1 : Fin 2) * 256 ≤ (i 1).val ∧ (i 1).val < win0_3.index _ (1 : Fin 2) * 256 + 256; omega

/-- The one block covers the whole value projection. -/
theorem values_cover (i : S4096x256.Idx) : ∃ t : Fin cfg0.N, (cfg0.win 4).flush t = true ∧ i ∈ ((cfg0.win 4).blk t).view.set := by
  refine ⟨⟨0, by decide⟩, flush0_4 _, ?_⟩
  rw [mem_values_block]
  obtain ⟨-, -, -, -, -, -, -, -, e0, e1⟩ := index_origin ⟨0, by decide⟩
  have h0 : (i 0).val < 4096 := (i 0).isLt
  have h1 : (i 1).val < 256 := (i 1).isLt
  intro a
  match a with
  | ⟨0, _⟩ => show win0_4.index _ (0 : Fin 2) * 4096 ≤ (i 0).val ∧ (i 0).val < win0_4.index _ (0 : Fin 2) * 4096 + 4096; omega
  | ⟨1, _⟩ => show win0_4.index _ (1 : Fin 2) * 256 ≤ (i 1).val ∧ (i 1).val < win0_4.index _ (1 : Fin 2) * 256 + 256; omega

/-- THE KEY PROJECTION after the first launch: the body's stored value of the whole context and key-weight arrays. -/
theorem keys_final (c : Dev nD) : (dat0 V c).arrAt 3 cfg0.N = k0_pay2 (V c main_arg1) (V c main_arg3) :=
  (dat0 V c).arrAt_eq_of_cover 3 _ (fun t _ => keys_flushed V c t) keys_cover

/-- THE VALUE PROJECTION after the first launch. -/
theorem values_final (c : Dev nD) : (dat0 V c).arrAt 4 cfg0.N = k0_pay3 (V c main_arg1) (V c main_arg4) :=
  (dat0 V c).arrAt_eq_of_cover 4 _ (fun t _ => values_flushed V c t) values_cover

end Cert.KernelIdeal.ProjBlocks

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«120492_j987842478212_2_alg».proof.Proof.LibRows
import proofs.«120492_j987842478212_2_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.Payload.lean ====
/-
  The kernels' stored values read at an entry, on the extended reals.

  First launch: the stored value at `(j, k)` is `Σ_a y (j, a) · W (a, k)` (the roundings to bf16 are the identity).
  Second launch: its stored value is three stages, one after the other —
    the scaled projected query block  `Q (r, k) = (Σ_a x (r, a) · Wq (a, k)) · 1/16`,
    the score block                   `S (r, j) = Σ_k Q (r, k) · YK (j, k)`   (the keys transposed),
    the weight block                  `W (r, j)`, the row-wise blended and renormalized softmax of `S`,
  and then `Σ_j W (r, j) · YV (j, c)`. Each row of the result depends on the same row of the query block only.
-/
import proofs.«120492_j987842478212_2_alg».proof.Proof.Gen.KernelIdeal.Skeleton
import proofs.«120492_j987842478212_2_alg».proof.Proof.Spec
import proofs.«120492_j987842478212_2_alg».proof.Proof.LibMatrixReduce
import proofs.«120492_j987842478212_2_alg».proof.Proof.LibPlainMatmul
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.SmoothAttn

/-! ## Row reductions of a matrix -/

/-- The maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.maximumf.neutral .f32 hφ)
    (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single]
  refine congrArg (fun f => (Finset.univ : Finset (Fin n)).fold max (Ideal.ofBits .f32 acc) f) (funext fun k => ?_)
  exact congrArg v (Cert.Rows.lift_row h r k)

/-! ## The first launch -/

/-- The key projection's stored value at `(j, k)`. -/
theorem keys_payload (v0 : FVec Ideal S4096x7 .f32) (v2 : FVec Ideal S7x256 .f32) (j : Fin 4096) (k : Fin 256) :
    k0_pay2 (F := Ideal) v0 v2 (ix2 j k) = mm (mat (a := 4096) (b := 7) v0) (mat (a := 7) (b := 256) v2) j k := by
  unfold k0_pay2 k0_pay1
  exact Cert.LibPlainMatmul.matmul_zero_apply dot_S4096x7_S7x256_S4096x256_1_0_0_1_n_n rfl rfl rfl rfl rfl rfl none _ _ j k

/-- The value projection's stored value at `(j, c)`. -/
theorem values_payload (v0 : FVec Ideal S4096x7 .f32) (v4 : FVec Ideal S7x256 .f32) (j : Fin 4096) (c : Fin 256) :
    k0_pay3 (F := Ideal) v0 v4 (ix2 j c) = mm (mat (a := 4096) (b := 7) v0) (mat (a := 7) (b := 256) v4) j c := by
  unfold k0_pay3 k0_pay1
  exact Cert.LibPlainMatmul.matmul_zero_apply dot_S4096x7_S7x256_S4096x256_1_0_0_1_n_n rfl rfl rfl rfl rfl rfl none _ _ j c

/-! ## The second launch, stage by stage -/

/-- The projected query block with the scale multiplied in. -/
def queryVec (x0 : FVec Ideal S512x256 .f32) (x1 : FVec Ideal S256x256 .f32) : FVec Ideal S512x256 .f32 :=
  mulf (matmul dot_S512x256_S256x256_S512x256_1_0_0_1_n_n none (truncf .bf16 x0 bitsLt_bf16_f32) (truncf .bf16 x1 bitsLt_bf16_f32)
      (constant S512x256 .f32 0x00000000#32))
    (broadcast S512x256 (Scalar.ofBits .f32 0x3D800000#32))

/-- The score block: the query block against the transposed keys. -/
def scoreVec (q : FVec Ideal S512x256 .f32) (x2 : FVec Ideal S4096x256 .bf16) : FVec Ideal S512x4096 .f32 :=
  matmul dot_S512x256_S256x4096_S512x4096_1_0_0_1_n_n none (truncf .bf16 q bitsLt_bf16_f32)
    (transpose S256x4096 [1, 0] (shapeCast S4096x256 x2 shapeCasts_S4096x256_S4096x256) transposes_S4096x256_p1_0_S256x4096)
    (constant S512x4096 .f32 0x00000000#32)

/-- The exponentials of the scores' distances below their row maxima. -/
def expVec (s : FVec Ideal S512x4096 .f32) : FVec Ideal S512x4096 .f32 :=
  exp (subf s (broadcastTo S512x4096 (shapeCast S512x1
    (multiReduction .maximumf [1] S512 s 0xFF800000#32 reduces_S512x4096_S512 (.inl rfl) rfl) shapeCasts_S512_S512x1)
    broadcasts_S512x1_S512x4096))

/-- The softmax blended with a tenth of the relu. -/
def blendVec (s : FVec Ideal S512x4096 .f32) : FVec Ideal S512x4096 .f32 :=
  addf (divf (expVec s) (broadcastTo S512x4096 (shapeCast S512x1
      (multiReduction .add [1] S512 (expVec s) 0x00000000#32 reduces_S512x4096_S512 (.inl rfl) rfl) shapeCasts_S512_S512x1)
      broadcasts_S512x1_S512x4096))
    (mulf (broadcast S512x4096 (Scalar.ofBits .f32 0x3DCCCCCD#32)) (maximumf s (broadcast S512x4096 (Scalar.ofBits .f32 0x00000000#32))))

/-- The renormalized weights. -/
def weightVec (s : FVec Ideal S512x4096 .f32) : FVec Ideal S512x4096 .f32 :=
  divf (blendVec s) (broadcastTo S512x4096 (shapeCast S512x1
    (multiReduction .add [1] S512 (blendVec s) 0x00000000#32 reduces_S512x4096_S512 (.inl rfl) rfl) shapeCasts_S512_S512x1)
    broadcasts_S512x1_S512x4096)

/-- The second launch's stored value is the weights of the scores of the scaled query, against the values. -/
theorem attn_stages (x0 : FVec Ideal S512x256 .f32) (x1 : FVec Ideal S256x256 .f32) (x2 x3 : FVec Ideal S4096x256 .bf16) :
    k1_pay1 (F := Ideal) x0 x1 x2 x3
      = matmul dot_S512x4096_S4096x256_S512x256_1_0_0_1_n_n none
          (truncf .bf16 (weightVec (scoreVec (queryVec x0 x1) x2)) bitsLt_bf16_f32)
          (shapeCast S4096x256 x3 shapeCasts_S4096x256_S4096x256) (constant S512x256 .f32 0x00000000#32) := by
  unfold k1_pay1 weightVec blendVec expVec scoreVec queryVec
  rfl

/-- The scaled query at `(r, k)`. -/
theorem queryVec_apply (x0 : FVec Ideal S512x256 .f32) (x1 : FVec Ideal S256x256 .f32) (r : Fin 512) (k : Fin 256) :
    queryVec x0 x1 (ix2 r k) = mm (mat (a := 512) (b := 256) x0) (mat (a := 256) (b := 256) x1) r k * Ideal.ofBits .f32 0x3D800000#32 := by
  unfold queryVec
  show _ * Ideal.ofBits .f32 0x3D800000#32 = _
  exact congrArg (· * Ideal.ofBits .f32 0x3D800000#32)
    (Cert.LibPlainMatmul.matmul_zero_apply dot_S512x256_S256x256_S512x256_1_0_0_1_n_n rfl rfl rfl rfl rfl rfl none _ _ r k)

/-- The score at `(r, j)`: the query row against key `j`. -/
theorem scoreVec_apply (q : FVec Ideal S512x256 .f32) (x2 : FVec Ideal S4096x256 .bf16) (r : Fin 512) (j : Fin 4096) :
    scoreVec q x2 (ix2 r j) = ∑ k : Fin 256, q (ix2 r k) * x2 (ix2 j k) := by
  unfold scoreVec
  refine (Cert.LibPlainMatmul.matmul_zero_apply dot_S512x256_S256x4096_S512x4096_1_0_0_1_n_n rfl rfl rfl rfl rfl rfl none _ _ r j).trans ?_
  refine Finset.sum_congr rfl fun k _ => congrArg (q (ix2 r k) * ·) ?_
  rw [shapeCast_self]
  exact transpose_apply [1, 0] x2 transposes_S4096x256_p1_0_S256x4096 (ix2 k j) (ix2 j k) (fun b => match b with
    | ⟨0, _⟩ => rfl
    | ⟨1, _⟩ => rfl)

theorem ne_one_512 : (512 : ℕ) ≠ 1 := by decide

/-- The exponential at `(r, j)` is the row's softmax numerator. -/
theorem expVec_apply (s : FVec Ideal S512x4096 .f32) (r : Fin 512) (j : Fin 4096) :
    expVec s (ix2 r j) = softExp (fun j' : Fin 4096 => s (ix2 r j')) j := by
  unfold expVec softExp rowMax
  show Ideal.exp (s (ix2 r j) - _) = _
  refine congrArg (fun z => Ideal.exp (s (ix2 r j) - z)) ?_
  refine (Cert.LibMatrixReduce.keptCol_apply ne_one_512 _ _ _ r j).trans ?_
  exact rowMax_apply s _ _ _ _ r

/-- The blend at `(r, j)`. -/
theorem blendVec_apply (s : FVec Ideal S512x4096 .f32) (r : Fin 512) (j : Fin 4096) :
    blendVec s (ix2 r j) = blend (fun j' : Fin 4096 => s (ix2 r j')) j := by
  unfold blendVec blend
  show Ideal.div (expVec s (ix2 r j)) _ + Ideal.ofBits .f32 0x3DCCCCCD#32 * max (s (ix2 r j)) (Ideal.ofBits .f32 0x00000000#32) = _
  refine congrArg (· + Ideal.ofBits .f32 0x3DCCCCCD#32 * max (s (ix2 r j)) (Ideal.ofBits .f32 0x00000000#32)) ?_
  refine congrArg₂ Ideal.div (expVec_apply s r j) ?_
  refine (Cert.LibMatrixReduce.keptCol_apply ne_one_512 _ _ _ r j).trans ?_
  refine (Cert.LibMatrixReduce.rowSum_apply (expVec s) _ _ _ _ r).trans ?_
  exact Finset.sum_congr rfl fun j' _ => expVec_apply s r j'

/-- The weight at `(r, j)`. -/
theorem weightVec_apply (s : FVec Ideal S512x4096 .f32) (r : Fin 512) (j : Fin 4096) :
    weightVec s (ix2 r j) = weight (fun j' : Fin 4096 => s (ix2 r j')) j := by
  unfold weightVec weight
  show Ideal.div (blendVec s (ix2 r j)) _ = _
  refine congrArg₂ Ideal.div (blendVec_apply s r j) ?_
  refine (Cert.LibMatrixReduce.keptCol_apply ne_one_512 _ _ _ r j).trans ?_
  refine (Cert.LibMatrixReduce.rowSum_apply (blendVec s) _ _ _ _ r).trans ?_
  exact Finset.sum_congr rfl fun j' _ => blendVec_apply s r j'

/-- THE SECOND LAUNCH'S STORED VALUE at `(r, c)`: the attention output of query row `r` against the keys and the value
    column `c`, the scores taken with the scale folded into the projected query. -/
theorem attn_payload (x0 : FVec Ideal S512x256 .f32) (x1 : FVec Ideal S256x256 .f32) (x2 x3 : FVec Ideal S4096x256 .bf16)
    (r : Fin 512) (c : Fin 256) :
    k1_pay1 (F := Ideal) x0 x1 x2 x3 (ix2 r c)
      = outScaled (fun k : Fin 256 => mm (mat (a := 512) (b := 256) x0) (mat (a := 256) (b := 256) x1) r k)
          (mat (a := 4096) (b := 256) x2) (fun j : Fin 4096 => mat (a := 4096) (b := 256) x3 j c) := by
  rw [attn_stages]
  refine (Cert.LibPlainMatmul.matmul_zero_apply dot_S512x4096_S4096x256_S512x256_1_0_0_1_n_n rfl rfl rfl rfl rfl rfl none _ _ r c).trans ?_
  unfold outScaled attend
  have hs : (fun j' : Fin 4096 => scoreVec (queryVec x0 x1) x2 (ix2 r j'))
      = scoresScaled (fun k : Fin 256 => mm (mat (a := 512) (b := 256) x0) (mat (a := 256) (b := 256) x1) r k) (mat (a := 4096) (b := 256) x2) := by
    funext j'
    rw [scoreVec_apply]
    unfold scoresScaled
    refine Finset.sum_congr rfl fun k _ => ?_
    rw [queryVec_apply]
    rfl
  refine Finset.sum_congr rfl fun j _ => ?_
  show weightVec (scoreVec (queryVec x0 x1) x2) (ix2 r j) * shapeCast S4096x256 x3 shapeCasts_S4096x256_S4096x256 (ix2 j c) = _
  rw [weightVec_apply, hs, shapeCast_self]
  rfl

end Cert.KernelIdeal.Payload

end
-- ==== Proof.AttnBlocks.lean ====
/-
  The second launch: from blocks to the whole output array.

  Grid point `t` stages rows `512·t … 512·t + 511` of the query array, and the whole query-weight, key and value
  arrays; it writes back rows `512·t … 512·t + 511` of the output. Row `r` of what it writes depends only on row
  `r` of its query block, so what it writes is block `t` of ONE function of the whole arrays: at `(i, c)` the
  attention output of query row `i` against all keys and value column `c`. The 32 blocks tile the output array.
-/
import proofs.«120492_j987842478212_2_alg».proof.Proof.Gen.KernelIdeal.Frame
import proofs.«120492_j987842478212_2_alg».proof.Proof.Payload
import Idealize.ShloMosaic.Lib.Pipeline.Value

set_option maxRecDepth 16384

noncomputable section

namespace Cert.KernelIdeal.AttnBlocks

open Cert.KernelIdeal Cert.KernelIdeal.Gen Idealize.ShloMosaic Idealize.ShloMosaic.TcCoe Idealize.SL.Sem
open Idealize.ShloMosaic.ValueIdx Cert.SmoothAttn
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The output array as one function of the arrays the second launch finds: at `(i, c)`, query row `i` projected and
    scaled, scored against every key, blended and renormalized, and summed against value column `c`. -/
def attnOut (x : S16384x256.Idx → EReal) (wq : S256x256.Idx → EReal) (yk yv : S4096x256.Idx → EReal) :
    S16384x256.Idx → EReal := fun i =>
  outScaled (fun k : Fin 256 => mm (mat (a := 16384) (b := 256) x) (mat (a := 256) (b := 256) wq) (i 0) k)
    (mat (a := 4096) (b := 256) yk) (fun j : Fin 4096 => mat (a := 4096) (b := 256) yv j (i 1))

/-- The printed index maps over the 32 grid points: the query and output windows move down one block of rows per
    point; the other windows stay at the origin. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The query-weight block is the whole query-weight array. -/
theorem queryWeights_block (c : Dev nD) (t : Fin cfg1.N) : iblk1 V c 1 t = V c main_arg2 := by
  funext j
  show V c main_arg2 (((cfg1.win 1).blk t).view.emb j) = V c main_arg2 j
  refine congrArg (V c main_arg2) (funext fun a => Fin.ext ?_)
  obtain ⟨-, -, e0, e1, -⟩ := index_facts t
  match a with
  | ⟨0, _⟩ => show win1_1.index t (0 : Fin 2) * 256 + 1 * (j 0).val = (j 0).val; omega
  | ⟨1, _⟩ => show win1_1.index t (1 : Fin 2) * 256 + 1 * (j 1).val = (j 1).val; omega

/-- The key block is the whole key projection. -/
theorem keys_block (c : Dev nD) (t : Fin cfg1.N) : iblk1 V c 2 t = V c main_v0_0 := by
  funext j
  show V c main_v0_0 (((cfg1.win 2).blk t).view.emb j) = V c main_v0_0 j
  refine congrArg (V c main_v0_0) (funext fun a => Fin.ext ?_)
  obtain ⟨-, -, -, -, e0, e1, -⟩ := index_facts t
  match a with
  | ⟨0, _⟩ => show win1_2.index t (0 : Fin 2) * 4096 + 1 * (j 0).val = (j 0).val; omega
  | ⟨1, _⟩ => show win1_2.index t (1 : Fin 2) * 256 + 1 * (j 1).val = (j 1).val; omega

/-- The value block is the whole value projection. -/
theorem values_block (c : Dev nD) (t : Fin cfg1.N) : iblk1 V c 3 t = V c main_v0_1 := by
  funext j
  show V c main_v0_1 (((cfg1.win 3).blk t).view.emb j) = V c main_v0_1 j
  refine congrArg (V c main_v0_1) (funext fun a => Fin.ext ?_)
  obtain ⟨-, -, -, -, -, -, e0, e1, -⟩ := index_facts t
  match a with
  | ⟨0, _⟩ => show win1_3.index t (0 : Fin 2) * 4096 + 1 * (j 0).val = (j 0).val; omega
  | ⟨1, _⟩ => show win1_3.index t (1 : Fin 2) * 256 + 1 * (j 1).val = (j 1).val; omega

/-- Row `r` of point `t`'s query block is row `512·t + r` of the query array. -/
theorem query_block (c : Dev nD) (t : Fin cfg1.N) (r : Fin 512) (a : Fin 256) (i : Fin 16384) (hi : i.val = t.val * 512 + r.val) :
    iblk1 V c 0 t (ix2 r a) = V c main_arg0 (ix2 i a) := by
  show V c main_arg0 (((cfg1.win 0).blk t).view.emb (ix2 r a)) = V c main_arg0 (ix2 i a)
  refine congrArg (V c main_arg0) (funext fun d => Fin.ext ?_)
  obtain ⟨e0, e1, -⟩ := index_facts t
  match d with
  | ⟨0, _⟩ => show win1_0.index t (0 : Fin 2) * 512 + 1 * r.val = i.val; omega
  | ⟨1, _⟩ => show win1_0.index t (1 : Fin 2) * 256 + 1 * a.val = a.val; omega

/-- WHAT POINT `t` WRITES BACK is block `t` of `attnOut` of the arrays the launch finds. -/
theorem out_flushed (c : Dev nD) (t : Fin cfg1.N) :
    (dat1 V c).flushed 4 t
      = ((cfg1.win 4).blk t).view.read (Elt Ideal) (attnOut (V c main_arg0) (V c main_arg2) (V c main_v0_0) (V c main_v0_1)) := by
  show (cfg1.win 4).cut (grid1.coords t) ((dat1 V c).after 4 t) = _
  rw [after1_4]
  unfold out1_4
  rw [View.canon_unit_zero origin]
  simp only [View.ld_unit_zero (S := S512x256) origin, View.ld_unit_zero (S := S256x256) origin,
    View.ld_unit_zero (S := S4096x256) origin]
  rw [queryWeights_block V c t, keys_block V c t, values_block V c t]
  funext j
  obtain ⟨r, q, rfl⟩ : ∃ (r : Fin 512) (q : Fin 256), j = ix2 r q := ⟨j 0, j 1, eq_ix2 j⟩
  show k1_pay1 (F := Ideal) (iblk1 V c 0 t) (V c main_arg2) (V c main_v0_0) (V c main_v0_1) (ix2 r q)
    = attnOut (V c main_arg0) (V c main_arg2) (V c main_v0_0) (V c main_v0_1) (((cfg1.win 4).blk t).view.emb (ix2 r q))
  refine (Cert.KernelIdeal.Payload.attn_payload (iblk1 V c 0 t) (V c main_arg2) (V c main_v0_0) (V c main_v0_1) r q).trans ?_
  obtain ⟨-, -, -, -, -, -, -, -, e0, e1⟩ := index_facts t
  have ht : t.val < 32 := lt_of_lt_of_eq t.isLt N_1
  have hr : r.val < 512 := r.isLt
  have hemb : ((cfg1.win 4).blk t).view.emb (ix2 r q) = ix2 (⟨t.val * 512 + r.val, by omega⟩ : Fin 16384) q :=
    funext fun d => Fin.ext (by
      match d with
      | ⟨0, _⟩ => show win1_4.index t (0 : Fin 2) * 512 + 1 * r.val = t.val * 512 + r.val; omega
      | ⟨1, _⟩ => show win1_4.index t (1 : Fin 2) * 256 + 1 * q.val = q.val; omega)
  rw [hemb]
  unfold attnOut
  show outScaled _ _ _ = outScaled (fun k : Fin 256 => mm (mat (a := 16384) (b := 256) (V c main_arg0)) (mat (a := 256) (b := 256) (V c main_arg2))
      (⟨t.val * 512 + r.val, by omega⟩ : Fin 16384) k) (mat (a := 4096) (b := 256) (V c main_v0_0)) (fun j : Fin 4096 => mat (a := 4096) (b := 256) (V c main_v0_1) j q)
  refine congrArg (fun f => outScaled f (mat (a := 4096) (b := 256) (V c main_v0_0)) (fun j : Fin 4096 => mat (a := 4096) (b := 256) (V c main_v0_1) j q)) (funext fun k => ?_)
  unfold mm
  refine Finset.sum_congr rfl fun a _ => congrArg (· * mat (a := 256) (b := 256) (V c main_arg2) a k) ?_
  exact query_block V c t r a _ rfl

/-- An index of the output array is in point `t`'s block iff each coordinate is in the block's range on its axis. -/
theorem mem_out_block (t : Fin cfg1.N) (i : S16384x256.Idx) :
    i ∈ ((cfg1.win 4).blk t).view.set ↔ ∀ a : Fin 2, win1_4.index t a * S512x256.size a ≤ (i a).val ∧ (i a).val < win1_4.index t a * S512x256.size a + S512x256.size a := by
  show i ∈ ((View.whole main_v1).slice (win1_4.rect t)).set ↔ _
  rw [View.set_slice_whole, Rect.mem_set_unit]
  exact Iff.rfl

/-- The 32 blocks cover the output array: row `i` is in block `i / 512`. -/
theorem out_cover (i : S16384x256.Idx) : ∃ t : Fin cfg1.N, (cfg1.win 4).flush t = true ∧ i ∈ ((cfg1.win 4).blk t).view.set := by
  have h0 : (i 0).val < 16384 := (i 0).isLt
  have h1 : (i 1).val < 256 := (i 1).isLt
  have hlt : (i 0).val / 512 < cfg1.N := by
    show (i 0).val / 512 < grid1.N
    rw [N_1]; omega
  refine ⟨⟨(i 0).val / 512, hlt⟩, flush1_4 _, ?_⟩
  rw [mem_out_block]
  obtain ⟨-, -, -, -, -, -, -, -, e0, e1⟩ := index_facts ⟨(i 0).val / 512, hlt⟩
  have e0' : win1_4.index ⟨(i 0).val / 512, hlt⟩ (0 : Fin 2) = (i 0).val / 512 := e0
  intro a
  match a with
  | ⟨0, _⟩ => show win1_4.index _ (0 : Fin 2) * 512 ≤ (i 0).val ∧ (i 0).val < win1_4.index _ (0 : Fin 2) * 512 + 512; omega
  | ⟨1, _⟩ => show win1_4.index _ (1 : Fin 2) * 256 ≤ (i 1).val ∧ (i 1).val < win1_4.index _ (1 : Fin 2) * 256 + 256; omega

/-- THE OUTPUT ARRAY after the second launch: `attnOut` of the arrays the launch finds. -/
theorem out_final (c : Dev nD) :
    (dat1 V c).arrAt 4 cfg1.N = attnOut (V c main_arg0) (V c main_arg2) (V c main_v0_0) (V c main_v0_1) :=
  (dat1 V c).arrAt_eq_of_cover 4 _ (fun t _ => out_flushed V c t) out_cover

end Cert.KernelIdeal.AttnBlocks

end
-- ==== Proof.KernelValue.lean ====
/-
  The idealized kernel's result as one function of its argument arrays.

  The second launch leaves in the output array, at `(i, c)`, the attention output of query row `i` against the key and
  value projections it found — and those are what the first launch left: the context rows against the key weights and
  against the value weights. Put together, at `(i, c)` the result is
    `attend (scores of (x·Wq)(i, ·)·1/16 against y·Wk) ((y·Wv)(·, c))`
  of the launch contents of the five arguments.
-/
import proofs.«120492_j987842478212_2_alg».proof.Proof.ResultRun
import proofs.«120492_j987842478212_2_alg».proof.Proof.ProjBlocks
import proofs.«120492_j987842478212_2_alg».proof.Proof.AttnBlocks

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.SmoothAttn

/-- The result array as a function of the query, context, query-weight, key-weight and value-weight arrays. -/
def result (x : S16384x256.Idx → EReal) (y : S4096x7.Idx → EReal) (wq : S256x256.Idx → EReal) (wk wv : S7x256.Idx → EReal) :
    S16384x256.Idx → EReal := fun i =>
  outScaled (fun k : Fin 256 => mm (mat (a := 16384) (b := 256) x) (mat (a := 256) (b := 256) wq) (i 0) k)
    (fun (j : Fin 4096) (k : Fin 256) => mm (mat (a := 4096) (b := 7) y) (mat (a := 7) (b := 256) wk) j k)
    (fun j : Fin 4096 => mm (mat (a := 4096) (b := 7) y) (mat (a := 7) (b := 256) wv) j (i 1))

variable (m : (ℓ : Loc nD τ sig) → Buf (Elt Ideal) ℓ) (ρ : Dev nD → PrngReg)

/-- The attention output over projections that are themselves stored products is `result` of the five arrays. -/
theorem attnOut_of_projections (x : S16384x256.Idx → EReal) (y : S4096x7.Idx → EReal) (wq : S256x256.Idx → EReal)
    (wk wv : S7x256.Idx → EReal) :
    Cert.KernelIdeal.AttnBlocks.attnOut x wq (k0_pay2 (F := Ideal) y wk) (k0_pay3 (F := Ideal) y wv) = result x y wq wk wv := by
  funext i
  unfold Cert.KernelIdeal.AttnBlocks.attnOut result
  have hK : mat (a := 4096) (b := 256) (k0_pay2 (F := Ideal) y wk)
      = fun (j : Fin 4096) (k : Fin 256) => mm (mat (a := 4096) (b := 7) y) (mat (a := 7) (b := 256) wk) j k :=
    funext fun j => funext fun k => Cert.KernelIdeal.Payload.keys_payload y wk j k
  have hV : (fun j : Fin 4096 => mat (a := 4096) (b := 256) (k0_pay3 (F := Ideal) y wv) j (i 1))
      = fun j : Fin 4096 => mm (mat (a := 4096) (b := 7) y) (mat (a := 7) (b := 256) wv) j (i 1) :=
    funext fun j => Cert.KernelIdeal.Payload.values_payload y wv j (i 1)
  rw [hK, hV]

/-- The output array after the run, as a function of the launch contents of the arguments. -/
theorem out_eq (c : Dev nD) :
    (dat1 (V1 m ρ) c).arrAt 4 cfg1.N
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have hk := (Cert.KernelIdeal.ResultRun.entry_keys m ρ c).trans (Cert.KernelIdeal.ProjBlocks.keys_final (V0 m ρ) c)
  have hv := (Cert.KernelIdeal.ResultRun.entry_values m ρ c).trans (Cert.KernelIdeal.ProjBlocks.values_final (V0 m ρ) c)
  rw [Cert.KernelIdeal.AttnBlocks.out_final (V1 m ρ) c, Cert.KernelIdeal.ResultRun.entry_main_arg0 m ρ c,
    Cert.KernelIdeal.ResultRun.entry_main_arg2 m ρ c, hk, hv]
  exact attnOut_of_projections _ _ _ _ _

/-- THE KERNEL'S RUN, READ: every weakly fair execution terminates, nothing faulting, with the result array at `result`
    of the arguments and the arguments as launched. -/
theorem run : θ_run defs (onTc (τ := τ) (main (F := Ideal))) ⟨m, fun _ => 0, ρ⟩ (fun r => ∀ c : Dev nD,
      r.2.mem ((c.tc : Thread nD τ).loc main_v1)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (out_eq m ρ c), (h c).2⟩) (Cert.KernelIdeal.ResultRun.run_result m ρ)

end Cert.KernelIdeal.KernelValue

end
-- ==== Proof.RefValue.lean ====
/-
  The reference read at an entry.

  At `(i, c)` the reference's result is the attention output of query row `i`: the projected query
  `q k = Σ_a x (i, a) · Wq (a, k)`, the projected keys `YK (j, k) = Σ_a y (j, a) · Wk (a, k)`, the scores
  `(Σ_k q k · YK (j, k)) / √256`, their blended and renormalized softmax, and the sum against the projected value
  column `YV (j, c) = Σ_a y (j, a) · Wv (a, c)`. The reference writes the blend as relu · 0.1 + softmax and takes the
  row maximum once more against minus infinity; both are the specification's forms by commutativity and because
  minus infinity is the identity of the maximum. Its row sums start from the word `0.0`, which is zero.
-/
import proofs.«120492_j987842478212_2_alg».proof.Proof.Gen.ReferenceIdeal.Read
import proofs.«120492_j987842478212_2_alg».proof.Proof.Spec
import proofs.«120492_j987842478212_2_alg».proof.Proof.LibRows
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.SmoothAttn

variable (x0 : (⟨S16384x256, .f32⟩ : BufTy).Contents (Elt Ideal)) (x1 : (⟨S4096x7, .f32⟩ : BufTy).Contents (Elt Ideal))
  (x2 : (⟨S256x256, .f32⟩ : BufTy).Contents (Elt Ideal)) (x3 x4 : (⟨S7x256, .f32⟩ : BufTy).Contents (Elt Ideal))

/-- The projected query row `i`. -/
abbrev qrow (i : Fin 16384) : Fin 256 → EReal := fun k => mm (mat (a := 16384) (b := 256) x0) (mat (a := 256) (b := 256) x2) i k
/-- The projected keys. -/
abbrev keys : Fin 4096 → Fin 256 → EReal := fun j k => mm (mat (a := 4096) (b := 7) x1) (mat (a := 7) (b := 256) x3) j k
/-- The projected value column `c`. -/
abbrev vcol (c : Fin 256) : Fin 4096 → EReal := fun j => mm (mat (a := 4096) (b := 7) x1) (mat (a := 7) (b := 256) x4) j c

/-! ## The three projections -/

theorem query_apply (i : Fin 16384) (k : Fin 256) : val_main_v0 (F := Ideal) x0 x2 (ix2 i k) = qrow x0 x2 i k := by
  rw [val_main_v0_apply]
  refine Finset.sum_congr rfl fun a _ => ?_
  have el : lidx_main_v0 (ix2 i k) a = ix2 i a := funext fun d => by match d with | ⟨0, _⟩ => rfl | ⟨1, _⟩ => rfl
  have er : ridx_main_v0 (ix2 i k) a = ix2 a k := funext fun d => by match d with | ⟨0, _⟩ => rfl | ⟨1, _⟩ => rfl
  rw [el, er]; rfl

theorem keys_apply (j : Fin 4096) (k : Fin 256) : val_main_v1 (F := Ideal) x1 x3 (ix2 j k) = keys x1 x3 j k := by
  rw [val_main_v1_apply]
  refine Finset.sum_congr rfl fun a _ => ?_
  have el : lidx_main_v1 (ix2 j k) a = ix2 j a := funext fun d => by match d with | ⟨0, _⟩ => rfl | ⟨1, _⟩ => rfl
  have er : ridx_main_v1 (ix2 j k) a = ix2 a k := funext fun d => by match d with | ⟨0, _⟩ => rfl | ⟨1, _⟩ => rfl
  rw [el, er]; rfl

theorem values_apply (j : Fin 4096) (c : Fin 256) : val_main_v2 (F := Ideal) x1 x4 (ix2 j c) = vcol x1 x4 c j := by
  rw [val_main_v2_apply]
  refine Finset.sum_congr rfl fun a _ => ?_
  have el : lidx_main_v2 (ix2 j c) a = ix2 j a := funext fun d => by match d with | ⟨0, _⟩ => rfl | ⟨1, _⟩ => rfl
  have er : ridx_main_v2 (ix2 j c) a = ix2 a c := funext fun d => by match d with | ⟨0, _⟩ => rfl | ⟨1, _⟩ => rfl
  rw [el, er]; rfl

/-! ## The scores -/

/-- The score of query row `i` against key `j`: the dot product divided by `√256`. -/
theorem scores_apply (i : Fin 16384) (j : Fin 4096) :
    val_main_v7 (F := Ideal) x0 x1 x2 x3 (ix2 i j) = scoresDivided (qrow x0 x2 i) (keys x1 x3) j := by
  rw [val_main_v7_apply, val_main_v4_apply, val_main_v6_apply, val_main_v5_apply, val_main_cst_apply]
  unfold scoresDivided
  show Ideal.div _ _ = Ideal.div _ _
  refine congrArg (Ideal.div · _) (Finset.sum_congr rfl fun k _ => ?_)
  have el : lidx_main_v4 (ix2 i j) k = ix2 i k := funext fun d => by match d with | ⟨0, _⟩ => rfl | ⟨1, _⟩ => rfl
  have er : ridx_main_v4 (ix2 i j) k = ix2 k j := funext fun d => by match d with | ⟨0, _⟩ => rfl | ⟨1, _⟩ => rfl
  have et : idx_main_v3 (ix2 k j) = ix2 j k := funext fun d => by match d with | ⟨0, _⟩ => rfl | ⟨1, _⟩ => rfl
  rw [el, er, val_main_v3_apply, et, query_apply, keys_apply]

/-- The scores of query row `i`, as a row. -/
abbrev srow (i : Fin 16384) : Fin 4096 → EReal := scoresDivided (qrow x0 x2 i) (keys x1 x3)

/-! ## The row maximum -/

theorem reduces_rows : S16384x4096.Reduces [1] S16384 := by decide

/-- The row maximum the reference subtracts: the fold from minus infinity, compared once more with minus infinity. -/
theorem rowMax_apply (i : Fin 16384) :
    val_main_v10 (F := Ideal) x0 x1 x2 x3 (ix1 i) = rowMax (srow x0 x1 x2 x3 i) := by
  rw [val_main_v10_apply, val_main_v9_apply, val_main_cst_1_apply]
  show max (Ideal.ofBits .f32 0xFF800000#32) _ = _
  rw [Cert.Rows.neg_inf_max]
  unfold val_main_v8
  rw [Host.reduce_eq_fold_single FloatOps.maximumf _ _ reducesTo_S16384x4096_S16384_d1 reduces_rows h_S_ (ix1 i)]
  unfold rowMax
  refine congrArg (fun f => (Finset.univ : Finset (Fin 4096)).fold max (Ideal.ofBits .f32 0xFF800000#32) f) (funext fun k => ?_)
  show val_main_v7 (F := Ideal) x0 x1 x2 x3 (reduces_rows.lift (ix1 i) k) = _
  rw [Cert.Rows.lift_row reduces_rows i k]
  exact scores_apply x0 x1 x2 x3 i _

/-! ## The softmax numerator, the blend and the weight -/

theorem exp_apply (i : Fin 16384) (j : Fin 4096) :
    val_main_v14 (F := Ideal) x0 x1 x2 x3 (ix2 i j) = softExp (srow x0 x1 x2 x3 i) j := by
  rw [val_main_v14_apply, val_main_v13_apply, val_main_v12_apply, val_main_v11_apply]
  have e1 : idx_main_v11 (idx_main_v12 (ix2 i j)) = ix1 i := funext fun d => by match d with | ⟨0, _⟩ => rfl
  rw [e1, rowMax_apply, scores_apply]
  rfl

theorem expSum_apply (i : Fin 16384) :
    val_main_v15 (F := Ideal) x0 x1 x2 x3 (ix1 i) = ∑ j : Fin 4096, softExp (srow x0 x1 x2 x3 i) j := by
  rw [val_main_v15_apply, val_main_cst_2_apply]
  show Ideal.ofBits .f32 0x00000000#32 + _ = _
  rw [Ideal.ofBits_zero_f32, zero_add]
  refine Finset.sum_congr rfl fun k _ => ?_
  have e1 : idx_main_v15 (ix1 i) k = ix2 i k := funext fun d => by match d with | ⟨0, _⟩ => rfl | ⟨1, _⟩ => rfl
  rw [e1, exp_apply]

theorem blend_apply (i : Fin 16384) (j : Fin 4096) :
    val_main_v22 (F := Ideal) x0 x1 x2 x3 (ix2 i j) = blend (srow x0 x1 x2 x3 i) j := by
  rw [val_main_v22_apply, val_main_v21_apply, val_main_v19_apply, val_main_v20_apply, val_main_cst_3_apply,
    val_main_call0_v0_apply, val_main_call0_cst_apply, val_main_v18_apply, val_main_v17_apply, val_main_v16_apply]
  have e1 : idx_main_v16 (idx_main_v17 (ix2 i j)) = ix1 i := funext fun d => by match d with | ⟨0, _⟩ => rfl
  rw [e1, expSum_apply, exp_apply, scores_apply]
  unfold blend
  show max _ (Ideal.ofBits .f32 0x00000000#32) * Ideal.ofBits .f32 0x3DCCCCCD#32 + Ideal.div _ _ = _
  rw [add_comm, mul_comm]

theorem blendSum_apply (i : Fin 16384) :
    val_main_v23 (F := Ideal) x0 x1 x2 x3 (ix1 i) = ∑ j : Fin 4096, blend (srow x0 x1 x2 x3 i) j := by
  rw [val_main_v23_apply, val_main_cst_4_apply]
  show Ideal.ofBits .f32 0x00000000#32 + _ = _
  rw [Ideal.ofBits_zero_f32, zero_add]
  refine Finset.sum_congr rfl fun k _ => ?_
  have e1 : idx_main_v23 (ix1 i) k = ix2 i k := funext fun d => by match d with | ⟨0, _⟩ => rfl | ⟨1, _⟩ => rfl
  rw [e1, blend_apply]

theorem weight_apply (i : Fin 16384) (j : Fin 4096) :
    val_main_v26 (F := Ideal) x0 x1 x2 x3 (ix2 i j) = weight (srow x0 x1 x2 x3 i) j := by
  rw [val_main_v26_apply, val_main_v25_apply, val_main_v24_apply]
  have e1 : idx_main_v24 (idx_main_v25 (ix2 i j)) = ix1 i := funext fun d => by match d with | ⟨0, _⟩ => rfl
  rw [e1, blendSum_apply, blend_apply]
  rfl

/-! ## The result -/

/-- THE REFERENCE'S RESULT at `(i, c)`. -/
theorem result_apply (i : Fin 16384) (c : Fin 256) :
    val_main_v27 (F := Ideal) x0 x1 x2 x3 x4 (ix2 i c) = outDivided (qrow x0 x2 i) (keys x1 x3) (vcol x1 x4 c) := by
  rw [val_main_v27_apply]
  unfold outDivided attend
  refine Finset.sum_congr rfl fun j _ => ?_
  have el : lidx_main_v27 (ix2 i c) j = ix2 i j := funext fun d => by match d with | ⟨0, _⟩ => rfl | ⟨1, _⟩ => rfl
  have er : ridx_main_v27 (ix2 i c) j = ix2 j c := funext fun d => by match d with | ⟨0, _⟩ => rfl | ⟨1, _⟩ => rfl
  rw [el, er, weight_apply, values_apply]

end Cert.ReferenceIdeal.RefValue

end
-- ==== Proof.Finite.lean ====
/-
  From the precondition to real entries.

  The precondition says, of each float argument array, that every entry's absolute value is below plus infinity.
  An extended real whose absolute value `max x (-x)` is below `⊤` is neither `⊤` nor `⊥`: it is a real number.
  The scale law needs this of the query, context, query-weight and key-weight arrays (not of the value weights,
  which only enter the last product, where nothing is rearranged).
-/
import proofs.«120492_j987842478212_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- The word `0x7F800000` is plus infinity. -/
theorem ofBits_inf : Ideal.ofBits .f32 0x7F800000#32 = (⊤ : EReal) := by
  simp [Ideal.ofBits, Ideal.ieee]

/-- An extended real whose absolute value compares below plus infinity is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- One `jnp.all (|a| < inf)` that came out true: every entry of `a` is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ValueIdx.ix0 = 1#1)
    (i : s.Idx) : ∃ r : ℝ, a i = (r : EReal) := by
  have hi := Host.reduce_andi_all _ _ hr hu _ e i
  have hb' : broadcastInDim s ![] hb (constant (F := Ideal) S_ .f32 0x7F800000#32) i = Ideal.ofBits .f32 0x7F800000#32 :=
    broadcastInDim_apply _ hb _ i ValueIdx.ix0 (fun a => a.elim0)
  have hc : Ideal.cmp .olt (max (a i) (-(a i))) (broadcastInDim s ![] hb (constant (F := Ideal) S_ .f32 0x7F800000#32) i) = 1#1 := hi
  rw [hb'] at hc
  exact real_of_abs_lt _ hc

variable [Facts]

/-- THE PRECONDITION READ: every entry of the first four argument arrays is a real number. -/
theorem real_inputs (a0 : FVec Ideal S16384x256 .f32) (a1 : FVec Ideal S4096x7 .f32) (a2 : FVec Ideal S256x256 .f32)
    (a3 a4 : FVec Ideal S7x256 .f32) (h : fn (F := Ideal) a0 a1 a2 a3 a4 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  obtain ⟨h0123, -⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2, real_of_all a3 _ _ _ e3⟩

end Cert.Pre_finite_inputs.Finite

end
-- ==== Proof.lean ====
/-
  Single-head attention whose row weights blend a softmax with a tenth of the relu: the Pallas kernel against its
  plain jnp reference, equal as extended reals under the precondition that every float input is finite.

  The kernel is two launches. The first projects the context rows onto the key and value weights (`y·Wk`, `y·Wv`).
  The second, for each block of 512 query rows, projects the rows (`x·Wq`), multiplies the projection by `1/16`, scores
  it against every key, forms `e = exp (s − max s)`, the blend `e / Σ e + 0.1 · max (s, 0)`, renormalizes by the blend's
  row sum and multiplies with the values. The reference does the same on whole arrays, except that it divides the
  unscaled scores by `√256`. Every rounding to bf16 is the identity on the extended reals, every matrix product and row
  reduction the plain finite sum (or fold of `max`), so both sides are the same composition once the scores agree —
  and they agree because `√256 = 16`, division by `16` is multiplication by `1/16`, and a real factor moves across a
  finite sum of REAL numbers. That last step is where the precondition is used: with finite `x`, `y`, `Wq`, `Wk` the
  projected queries and keys are real. (Nothing is asked of `Wv`: the last product is the same on both sides.)

  The pieces: the specification and the scale law (Spec); the kernel's stored values read at an entry (Payload);
  the first launch's arrays (ProjBlocks), the second launch's blocks tiling the output (AttnBlocks), the run with the
  result array named (ResultRun) and the three put together (KernelValue); the reference read at an entry (RefValue);
  real entries from the precondition (Finite). The ideal pass rewrote nothing, so `preserves` is `True`.
-/
import proofs.«120492_j987842478212_2_alg».proof.Defs
import proofs.«120492_j987842478212_2_alg».proof.Proof.Gen.Kernel
import proofs.«120492_j987842478212_2_alg».proof.Proof.Gen.Kernel.Frame
import proofs.«120492_j987842478212_2_alg».proof.Proof.Gen.KernelIdeal
import proofs.«120492_j987842478212_2_alg».proof.Proof.Gen.KernelIdeal.Frame
import proofs.«120492_j987842478212_2_alg».proof.Proof.Gen.ReferenceIdeal
import proofs.«120492_j987842478212_2_alg».proof.Proof.Gen.ReferenceIdeal.Run
import proofs.«120492_j987842478212_2_alg».proof.Proof.Gen.ReferenceIdeal.Read
import proofs.«120492_j987842478212_2_alg».proof.Proof.Gen.Pre_finite_inputs
import proofs.«120492_j987842478212_2_alg».proof.Proof.Spec
import proofs.«120492_j987842478212_2_alg».proof.Proof.KernelValue
import proofs.«120492_j987842478212_2_alg».proof.Proof.RefValue
import proofs.«120492_j987842478212_2_alg».proof.Proof.Finite
import Idealize.ShloMosaic.Adequacy
import Idealize.ShloMosaic.Init

noncomputable section

namespace Cert.Proof

open Idealize.ShloMosaic Idealize.SL.Sem Idealize.ShloMosaic.ValueIdx Cert.SmoothAttn

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- For real query, context, query-weight and key-weight entries the reference's result array is the kernel's:
    entry by entry, the same attention output, the scores agreeing by the scale law. -/
theorem results_agree (x : (⟨2, ![16384, 256]⟩ : Shape).Idx → EReal) (y : (⟨2, ![4096, 7]⟩ : Shape).Idx → EReal)
    (wq : (⟨2, ![256, 256]⟩ : Shape).Idx → EReal) (wk wv : (⟨2, ![7, 256]⟩ : Shape).Idx → EReal)
    (hx : ∀ i, ∃ r : ℝ, x i = (r : EReal)) (hy : ∀ i, ∃ r : ℝ, y i = (r : EReal))
    (hwq : ∀ i, ∃ r : ℝ, wq i = (r : EReal)) (hwk : ∀ i, ∃ r : ℝ, wk i = (r : EReal)) :
    Cert.ReferenceIdeal.Read.val_main_v27 (F := Ideal) x y wq wk wv = Cert.KernelIdeal.KernelValue.result x y wq wk wv := by
  funext i
  obtain ⟨p, q, rfl⟩ : ∃ (p : Fin 16384) (q : Fin 256), i = ix2 p q := ⟨i 0, i 1, eq_ix2 i⟩
  refine (Cert.ReferenceIdeal.RefValue.result_apply x y wq wk wv p q).trans ?_
  unfold Cert.KernelIdeal.KernelValue.result
  exact (outScaled_eq_outDivided _ _ _
    (fun k => mm_real _ _ (fun a b => hx (ix2 a b)) (fun a b => hwq (ix2 a b)) p k)
    (fun j k => mm_real _ _ (fun a b => hy (ix2 a b)) (fun a b => hwk (ix2 a b)) j k)).symm

/-- From memories agreeing on the arguments, both idealized programs run and end with equal result arrays. -/
theorem algebraic : Cert.algebraic_KernelIdeal_ReferenceIdeal := by
  intro m ρ m' ρ' hpre hagree
  refine ⟨fun c => Cert.KernelIdeal.KernelValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hy, hwq, hwk⟩ := Cert.Pre_finite_inputs.Finite.real_inputs _ _ _ _ _ (hpre c)
  rw [Cert.ReferenceIdeal.Read.val_main_v27_eq, (hagree c).1, (hagree c).2.1, (hagree c).2.2.1, (hagree c).2.2.2.1,
    (hagree c).2.2.2.2]
  exact results_agree _ _ _ _ _ hx hy hwq hwk

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
